-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x32 : Shape := ⟨2, ![256, 32]⟩
abbrev S32 : Shape := ⟨1, ![32]⟩
abbrev S32x16 : Shape := ⟨2, ![32, 16]⟩
abbrev S16 : Shape := ⟨1, ![16]⟩
abbrev S64x256 : Shape := ⟨2, ![64, 256]⟩
abbrev S80x1 : Shape := ⟨2, ![80, 1]⟩
abbrev S1 : Shape := ⟨1, ![1]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S64x256 : S_.BroadcastsInDim S64x256 (![] : Fin 0 → Fin S64x256.rank)
  reducesTo_S64x256_S_d0_1 : S64x256.ReducesTo [0, 1] S_
  bcast_S_S80x1 : S_.BroadcastsInDim S80x1 (![] : Fin 0 → Fin S80x1.rank)
  reducesTo_S80x1_S_d0_1 : S80x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S16 .f32) (main_arg5 : FVec F S64x256 .f32) (main_arg6 : FVec F S80x1 .f32) (main_arg7 : FVec F S1 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S80x1 .f32 := Host.absf main_arg6
  let main_cst_10 : FVec F S_ .f32 := constant S_ .f32 0x7F800000#32
  let main_v30 : FVec F S80x1 .f32 := broadcastInDim S80x1 ![] bcast_S_S80x1 main_cst_10
  let main_v31 : IVec S80x1 1 := cmpf .olt main_v29 main_v30
  let main_c_11 : IVec S_ 1 := constantI S_ 1 1#1
  let main_v32 : IVec S_ 1 := (fun x v => Host.reduce IntOp.andi x v reducesTo_S80x1_S_d0_1 h_S_) main_v31 main_c_11
  let main_v33 : IVec S_ 1 := andi main_v28 main_v32
  fn_part2 (F := F) main_arg7 main_v33

def fn {F : FTy → Type} [FloatOps F] (main_arg0 : FVec F S131072x256 .f32) (main_arg1 : FVec F S256x32 .f32) (main_arg2 : FVec F S32 .f32) (main_arg3 : FVec F S32x16 .f32) (main_arg4 : FVec F S16 .f32) (main_arg5 : FVec F S64x256 .f32) (main_arg6 : FVec F S80x1 .f32) (main_arg7 : FVec F S1 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_arg6 main_arg7 main_v13 main_v16
-- ==== Kernel.lean ====
abbrev S131072x256 : Shape := ⟨2, ![131072, 256]⟩
abbrev S256x32 : Shape := ⟨2, ![256, 32]⟩
abbrev S32 : Shape := ⟨1, ![32]⟩
abbrev S32x16 : Shape := ⟨2, ![32, 16]⟩
abbrev S16 : Shape := ⟨1, ![16]⟩
abbrev S64x256 : Shape := ⟨2, ![64, 256]⟩
abbrev S80x1 : Shape := ⟨2, ![80, 1]⟩
abbrev S1 : Shape := ⟨1, ![1]⟩
abbrev S1x32 : Shape := ⟨2, ![1, 32]⟩
abbrev S1x16 : Shape := ⟨2, ![1, 16]⟩
abbrev S256x64 : Shape := ⟨2, ![256, 64]⟩
abbrev S_ : Shape := ⟨0, ![]⟩
abbrev S64 : Shape := ⟨1, ![64]⟩
abbrev S1x64 : Shape := ⟨2, ![1, 64]⟩
abbrev S16x1 : Shape := ⟨2, ![16, 1]⟩
abbrev S64x1 : Shape := ⟨2, ![64, 1]⟩
abbrev S1x1 : Shape := ⟨2, ![1, 1]⟩
abbrev S131072x1 : Shape := ⟨2, ![131072, 1]⟩
abbrev S8192x256 : Shape := ⟨2, ![8192, 256]⟩
abbrev S8192x1 : Shape := ⟨2, ![8192, 1]⟩
abbrev S8192x32 : Shape := ⟨2, ![8192, 32]⟩
abbrev S8192x16 : Shape := ⟨2, ![8192, 16]⟩
abbrev S8192 : Shape := ⟨1, ![8192]⟩
abbrev S8192x64 : Shape := ⟨2, ![8192, 64]⟩
abbrev S131072 : Shape := ⟨1, ![131072]⟩

abbrev nBuf : Space → Nat
  | .hbm => 22
  | .vmem => 13
  | .smem => 0
  | _ => 0

abbrev bufTy : (tb : Table) → Fin (tcTables nBuf tb) → BufTy
  | .hbm, ⟨0, _⟩ => ⟨S131072x256, .f32⟩
  | .hbm, ⟨1, _⟩ => ⟨S256x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S64x256, .f32⟩
  | .hbm, ⟨6, _⟩ => ⟨S80x1, .f32⟩
  | .hbm, ⟨7, _⟩ => ⟨S1, .f32⟩
  | .hbm, ⟨8, _⟩ => ⟨S1x32, .f32⟩
  | .hbm, ⟨9, _⟩ => ⟨S1x16, .f32⟩
  | .hbm, ⟨10, _⟩ => ⟨S256x64, .f32⟩
  | .hbm, ⟨11, _⟩ => ⟨S64x256, .f32⟩
  | .hbm, ⟨12, _⟩ => ⟨S_, .f32⟩
  | .hbm, ⟨13, _⟩ => ⟨S64, .f32⟩
  | .hbm, ⟨14, _⟩ => ⟨S1x64, .f32⟩
  | .hbm, ⟨15, _⟩ => ⟨S16x1, .f32⟩
  | .hbm, ⟨16, _⟩ => ⟨S1x16, .f32⟩
  | .hbm, ⟨17, _⟩ => ⟨S64x1, .f32⟩
  | .hbm, ⟨18, _⟩ => ⟨S1x64, .f32⟩
  | .hbm, ⟨19, _⟩ => ⟨S1x1, .f32⟩
  | .hbm, ⟨20, _⟩ => ⟨S131072x1, .f32⟩
  | .hbm, ⟨21, _⟩ => ⟨S131072, .f32⟩
  | .local _ .vmem, ⟨0, _⟩ => ⟨S8192x256, .f32⟩
  | .local _ .vmem, ⟨1, _⟩ => ⟨S8192x256, .f32⟩
  | .local _ .vmem, ⟨2, _⟩ => ⟨S256x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S256x64, .f32⟩
  | .local _ .vmem, ⟨7, _⟩ => ⟨S1x64, .f32⟩
  | .local _ .vmem, ⟨8, _⟩ => ⟨S1x16, .f32⟩
  | .local _ .vmem, ⟨9, _⟩ => ⟨S1x64, .f32⟩
  | .local _ .vmem, ⟨10, _⟩ => ⟨S1x1, .f32⟩
  | .local _ .vmem, ⟨11, _⟩ => ⟨S8192x1, .f32⟩
  | .local _ .vmem, ⟨12, _⟩ => ⟨S8192x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8192x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S32_S1x32 : S32.ShapeCasts S1x32
  shapeCasts_S16_S1x16 : S16.ShapeCasts S1x16
  transposes_S64x256_S256x64_1_0 : S64x256.Transposes [1, 0] S256x64
  reducesTo_S64x256_S64_d1 : S64x256.ReducesTo [1] S64
  h_S_ : 0 < S_.numel
  shapeCasts_S64_S1x64 : S64.ShapeCasts S1x64
  slices_S80x1_S16x1_0_0 : S80x1.Slices ![0, 0] S16x1
  shapeCasts_S16x1_S1x16 : S16x1.ShapeCasts S1x16
  slices_S80x1_S64x1_16_0 : S80x1.Slices ![16, 0] S64x1
  shapeCasts_S64x1_S1x64 : S64x1.ShapeCasts S1x64
  shapeCasts_S1_S1x1 : S1.ShapeCasts S1x1
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  reduces_S8192x256_S8192 : S8192x256.Reduces [1] S8192
  shapeCasts_S8192_S8192x1 : S8192.ShapeCasts S8192x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8192x1_S8192x64 : S8192x1.Broadcasts S8192x64
  broadcasts_S1x64_S8192x64 : S1x64.Broadcasts S8192x64
  reduces_S8192x16_S8192 : S8192x16.Reduces [1] S8192
  reduces_S8192x64_S8192 : S8192x64.Reduces [1] S8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  shapeCasts_S131072x1_S131072 : S131072x1.ShapeCasts S131072
  dot_S8192x256_S256x32_S8192x32_1_0_0_1_n_n_wf : DotDims.WF S8192x256 S256x32 S8192x32 [1] [0] [0] [1] [] []
  dot_S8192x32_S32x16_S8192x16_1_0_0_1_n_n_wf : DotDims.WF S8192x32 S32x16 S8192x16 [1] [0] [0] [1] [] []
  dot_S8192x256_S256x64_S8192x64_1_0_0_1_n_n_wf : DotDims.WF S8192x256 S256x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8192x1.size a ≤ S131072x1.size a
  hwx0_10 : ∀ i : grid0.Coords, EltTy.bits .f32 = 32 ∨ (Rect.block (s := S131072x1) S8192x1.size (cc0_transform_10 i) (hinb0_10 i)).WholeWords (EltTy.packing .f32)

variable [Facts₀]

def dot_S8192x256_S256x32_S8192x32_1_0_0_1_n_n : DotDims S8192x256 S256x32 S8192x32 where
  lhsContracting := [1]
  rhsContracting := [0]
  lhsNonContracting := [0]
  rhsNonContracting := [1]
  lhsBatch := []
  rhsBatch := []
  wf := dot_S8192x256_S256x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S8192x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x32 : Shape := ⟨2, ![256, 32]⟩
abbrev S32 : Shape := ⟨1, ![32]⟩
abbrev S32x16 : Shape := ⟨2, ![32, 16]⟩
abbrev S16 : Shape := ⟨1, ![16]⟩
abbrev S64x256 : Shape := ⟨2, ![64, 256]⟩
abbrev S80x1 : Shape := ⟨2, ![80, 1]⟩
abbrev S1 : Shape := ⟨1, ![1]⟩
abbrev S131072x32 : Shape := ⟨2, ![131072, 32]⟩
abbrev S1x32 : Shape := ⟨2, ![1, 32]⟩
abbrev S_ : Shape := ⟨0, ![]⟩
abbrev S131072x16 : Shape := ⟨2, ![131072, 16]⟩
abbrev S1x16 : Shape := ⟨2, ![1, 16]⟩
abbrev S131072 : Shape := ⟨1, ![131072]⟩
abbrev S131072x1 : Shape := ⟨2, ![131072, 1]⟩
abbrev S64 : Shape := ⟨1, ![64]⟩
abbrev S256x64 : Shape := ⟨2, ![256, 64]⟩
abbrev S131072x64 : Shape := ⟨2, ![131072, 64]⟩
abbrev S1x64 : Shape := ⟨2, ![1, 64]⟩
abbrev S131072x80 : Shape := ⟨2, ![131072, 80]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S64x256, .f32⟩
  | .hbm, ⟨6, _⟩ => ⟨S80x1, .f32⟩
  | .hbm, ⟨7, _⟩ => ⟨S1, .f32⟩
  | .hbm, ⟨8, _⟩ => ⟨S131072x32, .f32⟩
  | .hbm, ⟨9, _⟩ => ⟨S1x32, .f32⟩
  | .hbm, ⟨10, _⟩ => ⟨S131072x32, .f32⟩
  | .hbm, ⟨11, _⟩ => ⟨S131072x32, .f32⟩
  | .hbm, ⟨12, _⟩ => ⟨S_, .f32⟩
  | .hbm, ⟨13, _⟩ => ⟨S131072x32, .f32⟩
  | .hbm, ⟨14, _⟩ => ⟨S131072x32, .f32⟩
  | .hbm, ⟨15, _⟩ => ⟨S131072x16, .f32⟩
  | .hbm, ⟨16, _⟩ => ⟨S1x16, .f32⟩
  | .hbm, ⟨17, _⟩ => ⟨S131072x16, .f32⟩
  | .hbm, ⟨18, _⟩ => ⟨S131072x16, .f32⟩
  | .hbm, ⟨19, _⟩ => ⟨S_, .f32⟩
  | .hbm, ⟨20, _⟩ => ⟨S131072x16, .f32⟩
  | .hbm, ⟨21, _⟩ => ⟨S131072x16, .f32⟩
  | .hbm, ⟨22, _⟩ => ⟨S131072x256, .f32⟩
  | .hbm, ⟨23, _⟩ => ⟨S_, .f32⟩
  | .hbm, ⟨24, _⟩ => ⟨S131072, .f32⟩
  | .hbm, ⟨25, _⟩ => ⟨S131072x1, .f32⟩
  | .hbm, ⟨26, _⟩ => ⟨S64x256, .f32⟩
  | .hbm, ⟨27, _⟩ => ⟨S_, .f32⟩
  | .hbm, ⟨28, _⟩ => ⟨S64, .f32⟩
  | .hbm, ⟨29, _⟩ => ⟨S256x64, .f32⟩
  | .hbm, ⟨30, _⟩ => ⟨S131072x64, .f32⟩
  | .hbm, ⟨31, _⟩ => ⟨S1x64, .f32⟩
  | .hbm, ⟨32, _⟩ => ⟨S131072x64, .f32⟩
  | .hbm, ⟨33, _⟩ => ⟨S131072x64, .f32⟩
  | .hbm, ⟨34, _⟩ => ⟨S131072x64, .f32⟩
  | .hbm, ⟨35, _⟩ => ⟨S_, .f32⟩
  | .hbm, ⟨36, _⟩ => ⟨S131072x64, .f32⟩
  | .hbm, ⟨37, _⟩ => ⟨S131072x64, .f32⟩
  | .hbm, ⟨38, _⟩ => ⟨S131072x64, .f32⟩
  | .hbm, ⟨39, _⟩ => ⟨S_, .f32⟩
  | .hbm, ⟨40, _⟩ => ⟨S131072x64, .f32⟩
  | .hbm, ⟨41, _⟩ => ⟨S131072x64, .f32⟩
  | .hbm, ⟨42, _⟩ => ⟨S131072x64, .f32⟩
  | .hbm, ⟨43, _⟩ => ⟨S131072x80, .f32⟩
  | .hbm, ⟨44, _⟩ => ⟨S131072x1, .f32⟩
  | .hbm, ⟨45, _⟩ => ⟨S1x1, .f32⟩
  | .hbm, ⟨46, _⟩ => ⟨S131072x1, .f32⟩
  | .hbm, ⟨47, _⟩ => ⟨S131072x1, .f32⟩
  | .hbm, ⟨48, _⟩ => ⟨S131072, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S131072x16 : S_.BroadcastsInDim S131072x16 (![] : Fin 0 → Fin S131072x16.rank)
  reducesTo_S131072x256_S131072_d1 : S131072x256.ReducesTo [1] S131072
  h_S_ : 0 < S_.numel
  bcast_S131072_S131072x1_0 : S131072.BroadcastsInDim S131072x1 (![0] : Fin 1 → Fin S131072x1.rank)
  reducesTo_S64x256_S64_d1 : S64x256.ReducesTo [1] S64
  transposes_S64x256_S256x64_1_0 : S64x256.Transposes [1, 0] S256x64
  bcast_S64_S1x64_1 : S64.BroadcastsInDim S1x64 (![1] : Fin 1 → Fin S1x64.rank)
  bcast_S131072x1_S131072x64_0_1 : S131072x1.BroadcastsInDim S131072x64 (![0, 1] : Fin 2 → Fin S131072x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  concatenates_S131072x16_S131072x64_S131072x80_d1 : Shape.Concatenates [S131072x16, S131072x64] S131072x80 1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  dot_S131072x256_S256x32_S131072x32_1_0_0_1_n_n_wf : DotDims.WF S131072x256 S256x32 S131072x32 [1] [0] [0] [1] [] []
  dot_S131072x32_S32x16_S131072x16_1_0_0_1_n_n_wf : DotDims.WF S131072x32 S32x16 S131072x16 [1] [0] [0] [1] [] []
  dot_S131072x256_S256x64_S131072x64_1_0_0_1_n_n_wf : DotDims.WF S131072x256 S256x64 S131072x64 [1] [0] [0] [1] [] []
  dot_S131072x80_S80x1_S131072x1_1_0_0_1_n_n_wf : DotDims.WF S131072x80 S80x1 S131072x1 [1] [0] [0] [1] [] []

variable [Facts₀]

def dot_S131072x256_S256x32_S131072x32_1_0_0_1_n_n : DotDims S131072x256 S256x32 S131072x32 where
  lhsContracting := [1]
  rhsContracting := [0]
  lhsNonContracting := [0]
  rhsNonContracting := [1]
  lhsBatch := []
  rhsBatch := []
  wf := dot_S131072x256_S256x32_S131072x32_1_0_0_1_n_n_wf
def dot_S131072x32_S32x16_S131072x16_1_0_0_1_n_n : DotDims S131072x32 S32x16 S131072x16 where
  lhsContracting := [1]
  rhsContracting := [0]
  lhsNonContracting := [0]
  rhsNonContracting := [1]
  lhsBatch := []
  rhsBatch := []
  wf := dot_S131072x32_S32x16_S131072x16_1_0_0_1_n_n_wf
def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf
def dot_S131072x80_S80x1_S131072x1_1_0_0_1_n_n : DotDims S131072x80 S80x1 S131072x1 where
  lhsContracting := [1]
  rhsContracting := [0]
  lhsNonContracting := [0]
  rhsNonContracting := [1]
  lhsBatch := []
  rhsBatch := []
  wf := dot_S131072x80_S80x1_S131072x1_1_0_0_1_n_n_wf

class Facts : Prop extends Facts₀ where

variable [Facts]
-- ==== Proof.RbfScore.lean ====
/-
  The function both programs compute, written once, row by row.

  One input row `x` (256 numbers) is scored by two branches whose outputs are joined by one linear map.
  * The dense branch: `h₁ = max (x W₁ + b₁, 0)` (32 numbers), then `h₂ = max (h₁ W₂ + b₂, 0)` (16 numbers).
  * The radial branch: for each of 64 reference rows `ρ_r`, the squared distance expanded as
    `d_r = (|x|² + |ρ_r|²) − 2 ⟨x, ρ_r⟩`, and the feature `κ_r = exp (−1 · d_r)`.
  * The score is `(Σ_j h₂ j · w_j + Σ_r κ_r · w'_r) + β`, where `w` is the first 16 and `w'` the last 64 of 80 weights.

  Everything is over the extended reals with exact operations. The constants `0`, `2` and `−1` are kept as the f32
  words both programs carry; only the zero word is ever evaluated (it is the additive unit in front of a sum).

  The one law of this file, `sum_head_tail`: a sum over 80 positions is the sum over the first 16 plus the sum over
  the last 64. It needs only that addition is commutative and associative, so it holds on the extended reals with
  no finiteness assumption.
-/
import Idealize.ShloMosaic.PureOps.Ideal
import Idealize.ShloMosaic.PureOps.Ideal.Laws
import Idealize.ShloMosaic.Lib.ValueIdx

noncomputable section

open scoped BigOperators

namespace Cert.RbfScore

open Idealize.ShloMosaic Idealize.ShloMosaic.ValueIdx

/-- The f32 word of `0`. -/
abbrev zeroW : EReal := Ideal.ofBits .f32 0x00000000#32
/-- The f32 word of `2`. -/
abbrev twoW : EReal := Ideal.ofBits .f32 0x40000000#32
/-- The f32 word of `−1`. -/
abbrev negOneW : EReal := Ideal.ofBits .f32 0xBF800000#32

/-- The zero word in front of a sum changes nothing. -/
theorem zeroW_add (s : EReal) : zeroW + s = s := by
  show Ideal.ofBits .f32 0x00000000#32 + s = s
  rw [Ideal.ofBits_zero_f32, zero_add]

/-! ## One row -/

/-- First dense layer: `max (Σ_f x f · W₁ f j + b₁ j, 0)`. -/
def hidden1 (x : Fin 256 → EReal) (W1 : Fin 256 → Fin 32 → EReal) (b1 : Fin 32 → EReal) (j : Fin 32) : EReal :=
  max ((∑ f : Fin 256, x f * W1 f j) + b1 j) zeroW

/-- Second dense layer: `max (Σ_k h k · W₂ k j + b₂ j, 0)`. -/
def hidden2 (h : Fin 32 → EReal) (W2 : Fin 32 → Fin 16 → EReal) (b2 : Fin 16 → EReal) (j : Fin 16) : EReal :=
  max ((∑ k : Fin 32, h k * W2 k j) + b2 j) zeroW

/-- The squared norm of a row of 256 numbers. -/
def sqNorm (v : Fin 256 → EReal) : EReal := ∑ f : Fin 256, v f * v f

/-- The radial feature against reference row `r`: `exp (−1 · ((|x|² + n r) − 2 · Σ_f x f · ρ r f))`, where `n r` is
    the reference row's squared norm, handed in so that a caller may have computed it beforehand. -/
def feature (x : Fin 256 → EReal) (ref : Fin 64 → Fin 256 → EReal) (n : Fin 64 → EReal) (r : Fin 64) : EReal :=
  Ideal.exp (negOneW * ((sqNorm x + n r) - twoW * ∑ f : Fin 256, x f * ref r f))

/-- The score of one row: the two branches, each weighted and summed, added, plus the bias. -/
def rowScore (x : Fin 256 → EReal) (W1 : Fin 256 → Fin 32 → EReal) (b1 : Fin 32 → EReal)
    (W2 : Fin 32 → Fin 16 → EReal) (b2 : Fin 16 → EReal) (ref : Fin 64 → Fin 256 → EReal) (n : Fin 64 → EReal)
    (wa : Fin 16 → EReal) (wb : Fin 64 → EReal) (β : EReal) : EReal :=
  ((∑ j : Fin 16, hidden2 (hidden1 x W1 b1) W2 b2 j * wa j) + (∑ r : Fin 64, feature x ref n r * wb r)) + β

/-- The score depends on its ten operands only through their entries. -/
theorem rowScore_congr {x x' : Fin 256 → EReal} {W1 W1' : Fin 256 → Fin 32 → EReal} {b1 b1' : Fin 32 → EReal}
    {W2 W2' : Fin 32 → Fin 16 → EReal} {b2 b2' : Fin 16 → EReal} {ref ref' : Fin 64 → Fin 256 → EReal}
    {n n' : Fin 64 → EReal} {wa wa' : Fin 16 → EReal} {wb wb' : Fin 64 → EReal} {β β' : EReal}
    (hx : ∀ f, x f = x' f) (hW1 : ∀ f j, W1 f j = W1' f j) (hb1 : ∀ j, b1 j = b1' j) (hW2 : ∀ k j, W2 k j = W2' k j)
    (hb2 : ∀ j, b2 j = b2' j) (href : ∀ r f, ref r f = ref' r f) (hn : ∀ r, n r = n' r) (hwa : ∀ j, wa j = wa' j)
    (hwb : ∀ r, wb r = wb' r) (hβ : β = β') :
    rowScore x W1 b1 W2 b2 ref n wa wb β = rowScore x' W1' b1' W2' b2' ref' n' wa' wb' β' := by
  obtain rfl : x = x' := funext hx
  obtain rfl : W1 = W1' := funext fun f => funext (hW1 f)
  obtain rfl : b1 = b1' := funext hb1
  obtain rfl : W2 = W2' := funext fun k => funext (hW2 k)
  obtain rfl : b2 = b2' := funext hb2
  obtain rfl : ref = ref' := funext fun r => funext (href r)
  obtain rfl : n = n' := funext hn
  obtain rfl : wa = wa' := funext hwa
  obtain rfl : wb = wb' := funext hwb
  subst hβ
  rfl

/-! ## The 80 weights as 16 and 64 -/

/-- Position `j` of the first 16 among 80. -/
def headIdx (j : Fin 16) : Fin 80 := ⟨j.val, by omega⟩
/-- Position `16 + r`: the `r`-th of the last 64 among 80. -/
def tailIdx (r : Fin 64) : Fin 80 := ⟨16 + r.val, by omega⟩

@[simp] theorem headIdx_val (j : Fin 16) : (headIdx j).val = j.val := rfl
@[simp] theorem tailIdx_val (r : Fin 64) : (tailIdx r).val = 16 + r.val := rfl

/-- A sum over 80 positions is the sum over the first 16 plus the sum over the last 64. -/
theorem sum_head_tail {M : Type*} [AddCommMonoid M] (g : Fin 80 → M) :
    ∑ k : Fin 80, g k = (∑ j : Fin 16, g (headIdx j)) + ∑ r : Fin 64, g (tailIdx r) := by
  have h := Fin.sum_univ_add (M := M) (a := 16) (b := 64) g
  refine h.trans ?_
  congr 1

/-! ## The whole arrays -/

/-- The result array as one function of the eight argument arrays: entry `i` is the score of row `i` of `X`, the
    reference rows' squared norms computed from the reference array, the 80 weights cut into their first 16 and last 64. -/
def G (X : (⟨2, ![131072, 256]⟩ : Shape).Idx → EReal) (W1 : (⟨2, ![256, 32]⟩ : Shape).Idx → EReal)
    (b1 : (⟨1, ![32]⟩ : Shape).Idx → EReal) (W2 : (⟨2, ![32, 16]⟩ : Shape).Idx → EReal)
    (b2 : (⟨1, ![16]⟩ : Shape).Idx → EReal) (R : (⟨2, ![64, 256]⟩ : Shape).Idx → EReal)
    (Wf : (⟨2, ![80, 1]⟩ : Shape).Idx → EReal) (bf : (⟨1, ![1]⟩ : Shape).Idx → EReal)
    (i : (⟨1, ![131072]⟩ : Shape).Idx) : EReal :=
  rowScore (fun f => X (ix2 (i 0) f)) (fun f j => W1 (ix2 f j)) (fun j => b1 (ix1 j)) (fun k j => W2 (ix2 k j))
    (fun j => b2 (ix1 j)) (fun r f => R (ix2 r f)) (fun r => sqNorm fun f => R (ix2 r f))
    (fun j => Wf (ix2 (headIdx j) (0 : Fin 1))) (fun r => Wf (ix2 (tailIdx r) (0 : Fin 1))) (bf (ix1 (0 : Fin 1)))

end Cert.RbfScore

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.BlockScore.lean ====
/-
  What one grid point of the kernel stores, entry by entry.

  At a grid point the kernel body holds a block of 8192 input rows and every small operand whole: the two weight
  matrices, the two biases as `1 × n` rows, the reference array transposed to `256 × 64`, the reference rows'
  squared norms as a `1 × 64` row, the 80 final weights as a `1 × 16` row and a `1 × 64` row, the final bias as a
  `1 × 1` cell. Its one store writes an `8192 × 1` column. Entry `(p, 0)` of that column is `rowScore` of row `p` of
  the block and of those operands read at their entries:
  * a matrix product accumulated from zero is, at an entry, the sum over the contracted coordinate;
  * a row `1 × n` spread over the 8192 rows reads the row's entry of the column;
  * a sum along the lanes started from the zero word is the sum of the row's entries, and kept as a column it is read
    back at the row; a column spread along the lanes reads the row's entry;
  * narrowing to bf16 changes nothing over the extended reals.
-/
import proofs.«133785_j65481071396201_1_alg».proof.Proof.Gen.KernelIdeal.Skeleton
import proofs.«133785_j65481071396201_1_alg».proof.Proof.RbfScore
import proofs.«133785_j65481071396201_1_alg».proof.Proof.LibGram
import proofs.«133785_j65481071396201_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.BlockScore

open Cert.KernelIdeal Cert.KernelIdeal.Gen Cert.RbfScore Cert.Lib.Gram Cert.Lib.RowOps
open Idealize.ShloMosaic Idealize.ShloMosaic.ValueIdx

/-! ## The three matrix products at an entry -/

theorem lhsRow1 (i : S8192x32.Idx) (q : dot_S8192x256_S256x32_S8192x32_1_0_0_1_n_n.contr.Idx) :
    (dot_S8192x256_S256x32_S8192x32_1_0_0_1_n_n.lhsIdx i q 0).val = (i 0).val := by
  unfold DotDims.lhsIdx
  rw [dif_neg (show ¬(0 : Fin S8192x256.rank) ∈ dot_S8192x256_S256x32_S8192x32_1_0_0_1_n_n.lhsBatch by decide),
    dif_pos (show (0 : Fin S8192x256.rank) ∈ dot_S8192x256_S256x32_S8192x32_1_0_0_1_n_n.lhsNonContracting by decide)]
  rfl
theorem rhsCol1 (i : S8192x32.Idx) (q : dot_S8192x256_S256x32_S8192x32_1_0_0_1_n_n.contr.Idx) :
    (dot_S8192x256_S256x32_S8192x32_1_0_0_1_n_n.rhsIdx i q 1).val = (i 1).val := by
  unfold DotDims.rhsIdx
  rw [dif_neg (show ¬(1 : Fin S256x32.rank) ∈ dot_S8192x256_S256x32_S8192x32_1_0_0_1_n_n.rhsBatch by decide),
    dif_pos (show (1 : Fin S256x32.rank) ∈ dot_S8192x256_S256x32_S8192x32_1_0_0_1_n_n.rhsNonContracting by decide)]
  rfl
/-- The input block times the first weight matrix, accumulated from zero: entry `(p, q)` is `Σ_c A (p, c) · B (c, q)`. -/
theorem prod1_apply {φ₁ φ₂ : FTy} (A : FVec Ideal S8192x256 φ₁) (B : FVec Ideal S256x32 φ₂) (p : Fin 8192) (q : Fin 32) :
    matmul dot_S8192x256_S256x32_S8192x32_1_0_0_1_n_n none A B (constant S8192x32 .f32 0x00000000#32) (ix2 p q)
      = ∑ c : Fin 256, A (ix2 p c) * B (ix2 c q) := by
  refine matmul_zero_single_apply dot_S8192x256_S256x32_S8192x32_1_0_0_1_n_n 256 rfl rfl none A B (ix2 p q) (fun c => ix2 p c) (fun c => ix2 c q)
    (fun c => ?_) (fun c => ?_)
  · have hk := contrEquiv1_symm_val dot_S8192x256_S256x32_S8192x32_1_0_0_1_n_n 256 rfl rfl c
    exact funext fun d => Fin.ext (by
      match d with
      | ⟨0, _⟩ => exact lhsRow1 _ _
      | ⟨1, _⟩ => exact (dot_S8192x256_S256x32_S8192x32_1_0_0_1_n_n.lhsIdx_val_of_single rfl _ _).trans hk)
  · have hk := contrEquiv1_symm_val dot_S8192x256_S256x32_S8192x32_1_0_0_1_n_n 256 rfl rfl c
    exact funext fun d => Fin.ext (by
      match d with
      | ⟨0, _⟩ => exact (dot_S8192x256_S256x32_S8192x32_1_0_0_1_n_n.rhsIdx_val_of_single rfl _ _).trans hk
      | ⟨1, _⟩ => exact rhsCol1 _ _)

theorem lhsRow2 (i : S8192x16.Idx) (q : dot_S8192x32_S32x16_S8192x16_1_0_0_1_n_n.contr.Idx) :
    (dot_S8192x32_S32x16_S8192x16_1_0_0_1_n_n.lhsIdx i q 0).val = (i 0).val := by
  unfold DotDims.lhsIdx
  rw [dif_neg (show ¬(0 : Fin S8192x32.rank) ∈ dot_S8192x32_S32x16_S8192x16_1_0_0_1_n_n.lhsBatch by decide),
    dif_pos (show (0 : Fin S8192x32.rank) ∈ dot_S8192x32_S32x16_S8192x16_1_0_0_1_n_n.lhsNonContracting by decide)]
  rfl
theorem rhsCol2 (i : S8192x16.Idx) (q : dot_S8192x32_S32x16_S8192x16_1_0_0_1_n_n.contr.Idx) :
    (dot_S8192x32_S32x16_S8192x16_1_0_0_1_n_n.rhsIdx i q 1).val = (i 1).val := by
  unfold DotDims.rhsIdx
  rw [dif_neg (show ¬(1 : Fin S32x16.rank) ∈ dot_S8192x32_S32x16_S8192x16_1_0_0_1_n_n.rhsBatch by decide),
    dif_pos (show (1 : Fin S32x16.rank) ∈ dot_S8192x32_S32x16_S8192x16_1_0_0_1_n_n.rhsNonContracting by decide)]
  rfl
/-- The first hidden block times the second weight matrix, accumulated from zero: entry `(p, q)` is `Σ_c A (p, c) · B (c, q)`. -/
theorem prod2_apply {φ₁ φ₂ : FTy} (A : FVec Ideal S8192x32 φ₁) (B : FVec Ideal S32x16 φ₂) (p : Fin 8192) (q : Fin 16) :
    matmul dot_S8192x32_S32x16_S8192x16_1_0_0_1_n_n none A B (constant S8192x16 .f32 0x00000000#32) (ix2 p q)
      = ∑ c : Fin 32, A (ix2 p c) * B (ix2 c q) := by
  refine matmul_zero_single_apply dot_S8192x32_S32x16_S8192x16_1_0_0_1_n_n 32 rfl rfl none A B (ix2 p q) (fun c => ix2 p c) (fun c => ix2 c q)
    (fun c => ?_) (fun c => ?_)
  · have hk := contrEquiv1_symm_val dot_S8192x32_S32x16_S8192x16_1_0_0_1_n_n 32 rfl rfl c
    exact funext fun d => Fin.ext (by
      match d with
      | ⟨0, _⟩ => exact lhsRow2 _ _
      | ⟨1, _⟩ => exact (dot_S8192x32_S32x16_S8192x16_1_0_0_1_n_n.lhsIdx_val_of_single rfl _ _).trans hk)
  · have hk := contrEquiv1_symm_val dot_S8192x32_S32x16_S8192x16_1_0_0_1_n_n 32 rfl rfl c
    exact funext fun d => Fin.ext (by
      match d with
      | ⟨0, _⟩ => exact (dot_S8192x32_S32x16_S8192x16_1_0_0_1_n_n.rhsIdx_val_of_single rfl _ _).trans hk
      | ⟨1, _⟩ => exact rhsCol2 _ _)

theorem lhsRow3 (i : S8192x64.Idx) (q : dot_S8192x256_S256x64_S8192x64_1_0_0_1_n_n.contr.Idx) :
    (dot_S8192x256_S256x64_S8192x64_1_0_0_1_n_n.lhsIdx i q 0).val = (i 0).val := by
  unfold DotDims.lhsIdx
  rw [dif_neg (show ¬(0 : Fin S8192x256.rank) ∈ dot_S8192x256_S256x64_S8192x64_1_0_0_1_n_n.lhsBatch by decide),
    dif_pos (show (0 : Fin S8192x256.rank) ∈ dot_S8192x256_S256x64_S8192x64_1_0_0_1_n_n.lhsNonContracting by decide)]
  rfl
theorem rhsCol3 (i : S8192x64.Idx) (q : dot_S8192x256_S256x64_S8192x64_1_0_0_1_n_n.contr.Idx) :
    (dot_S8192x256_S256x64_S8192x64_1_0_0_1_n_n.rhsIdx i q 1).val = (i 1).val := by
  unfold DotDims.rhsIdx
  rw [dif_neg (show ¬(1 : Fin S256x64.rank) ∈ dot_S8192x256_S256x64_S8192x64_1_0_0_1_n_n.rhsBatch by decide),
    dif_pos (show (1 : Fin S256x64.rank) ∈ dot_S8192x256_S256x64_S8192x64_1_0_0_1_n_n.rhsNonContracting by decide)]
  rfl
/-- The input block times the transposed reference array, accumulated from zero: entry `(p, q)` is `Σ_c A (p, c) · B (c, q)`. -/
theorem prod3_apply {φ₁ φ₂ : FTy} (A : FVec Ideal S8192x256 φ₁) (B : FVec Ideal S256x64 φ₂) (p : Fin 8192) (q : Fin 64) :
    matmul dot_S8192x256_S256x64_S8192x64_1_0_0_1_n_n none A B (constant S8192x64 .f32 0x00000000#32) (ix2 p q)
      = ∑ c : Fin 256, A (ix2 p c) * B (ix2 c q) := by
  refine matmul_zero_single_apply dot_S8192x256_S256x64_S8192x64_1_0_0_1_n_n 256 rfl rfl none A B (ix2 p q) (fun c => ix2 p c) (fun c => ix2 c q)
    (fun c => ?_) (fun c => ?_)
  · have hk := contrEquiv1_symm_val dot_S8192x256_S256x64_S8192x64_1_0_0_1_n_n 256 rfl rfl c
    exact funext fun d => Fin.ext (by
      match d with
      | ⟨0, _⟩ => exact lhsRow3 _ _
      | ⟨1, _⟩ => exact (dot_S8192x256_S256x64_S8192x64_1_0_0_1_n_n.lhsIdx_val_of_single rfl _ _).trans hk)
  · have hk := contrEquiv1_symm_val dot_S8192x256_S256x64_S8192x64_1_0_0_1_n_n 256 rfl rfl c
    exact funext fun d => Fin.ext (by
      match d with
      | ⟨0, _⟩ => exact (dot_S8192x256_S256x64_S8192x64_1_0_0_1_n_n.rhsIdx_val_of_single rfl _ _).trans hk
      | ⟨1, _⟩ => exact rhsCol3 _ _)

/-! ## The payloads at an entry -/

variable (x0 : Vec Ideal S8192x256 .f32) (x1 : Vec Ideal S256x32 .f32) (x2 : Vec Ideal S1x32 .f32)
  (x3 : Vec Ideal S32x16 .f32) (x4 : Vec Ideal S1x16 .f32) (x5 : Vec Ideal S256x64 .f32) (x6 : Vec Ideal S1x64 .f32)
  (x7 : Vec Ideal S1x16 .f32) (x8 : Vec Ideal S1x64 .f32) (x9 : Vec Ideal S1x1 .f32)

/-- The dense branch of row `p` of the block, at output `j`. -/
theorem dense_apply (p : Fin 8192) (j : Fin 16) :
    k0_pay3 x0 x1 x2 x3 x4 (ix2 p j)
      = hidden2 (hidden1 (fun f => x0 (ix2 p f)) (fun f j => x1 (ix2 f j)) (fun j => x2 (ix2 (0 : Fin 1) j)))
          (fun k j => x3 (ix2 k j)) (fun j => x4 (ix2 (0 : Fin 1) j)) j := by
  unfold k0_pay3 k0_pay2 hidden2
  dsimp only
  simp only [shapeCast_self]
  rw [maximumf_apply, addf_apply, prod2_apply, broadcastTo_1b_ab_apply, broadcast_apply]
  refine congrArg (fun s => max (s + x4 (ix2 (0 : Fin 1) j)) zeroW) (Finset.sum_congr rfl fun c _ => ?_)
  rw [truncf_apply, truncf_apply, maximumf_apply, addf_apply, prod1_apply, broadcastTo_1b_ab_apply, broadcast_apply]
  rfl

/-- The expanded squared distance between row `p` of the block and reference row `r`. -/
theorem sqdist_apply (p : Fin 8192) (r : Fin 64) :
    k0_pay4 x0 x5 x6 (ix2 p r)
      = (sqNorm (fun f => x0 (ix2 p f)) + x6 (ix2 (0 : Fin 1) r)) - twoW * ∑ f : Fin 256, x0 (ix2 p f) * x5 (ix2 f r) := by
  unfold k0_pay4 k0_pay2 sqNorm
  dsimp only
  simp only [shapeCast_self]
  rw [subf_apply, addf_apply, mulf_apply, broadcast_apply, prod3_apply, broadcastTo_a1_ab_apply, shapeCast_a_a1_apply,
    laneSum_apply, broadcastTo_1b_ab_apply]
  rfl

/-- The stored column at `(p, 0)` from the two branches' values: the weighted sums, added, plus the bias cell. -/
theorem combine_apply (v20 : FVec Ideal S8192x16 .f32) (v35 : FVec Ideal S8192x64 .f32) (p : Fin 8192) (u : Fin 1) :
    k0_pay1 v20 v35 (k0_pay5 (F := Ideal)) x7 x8 x9 (ix2 p u)
      = ((∑ j : Fin 16, v20 (ix2 p j) * x7 (ix2 (0 : Fin 1) j))
          + ∑ r : Fin 64, Ideal.exp (negOneW * v35 (ix2 p r)) * x8 (ix2 (0 : Fin 1) r)) + x9 (ix2 (0 : Fin 1) (0 : Fin 1)) := by
  obtain rfl : u = 0 := Subsingleton.elim _ _
  unfold k0_pay1 k0_pay5
  dsimp only
  simp only [shapeCast_self]
  rw [addf_apply, addf_apply, shapeCast_a_a1_apply, shapeCast_a_a1_apply, laneSum_apply, laneSum_apply,
    broadcastTo_1b_ab_apply]
  refine congrArg₂ (fun s t => (s + t) + x9 (ix2 (0 : Fin 1) (0 : Fin 1))) (Finset.sum_congr rfl fun j _ => ?_)
    (Finset.sum_congr rfl fun r _ => ?_)
  · rw [mulf_apply, broadcastTo_1b_ab_apply]
  · rw [mulf_apply, broadcastTo_1b_ab_apply]
    rfl

/-- Entry `(p, 0)` of the stored column is the score of row `p` of the block. -/
theorem block_apply (p : Fin 8192) (u : Fin 1) :
    k0_pay1 (k0_pay3 x0 x1 x2 x3 x4) (k0_pay4 x0 x5 x6) (k0_pay5 (F := Ideal)) x7 x8 x9 (ix2 p u)
      = rowScore (fun f => x0 (ix2 p f)) (fun f j => x1 (ix2 f j)) (fun j => x2 (ix2 (0 : Fin 1) j))
          (fun k j => x3 (ix2 k j)) (fun j => x4 (ix2 (0 : Fin 1) j)) (fun r f => x5 (ix2 f r))
          (fun r => x6 (ix2 (0 : Fin 1) r)) (fun j => x7 (ix2 (0 : Fin 1) j)) (fun r => x8 (ix2 (0 : Fin 1) r))
          (x9 (ix2 (0 : Fin 1) (0 : Fin 1))) := by
  rw [combine_apply]
  unfold rowScore feature
  simp only [dense_apply, sqdist_apply]

/-- The same at any entry `y` of the stored column: its row is `y 0`. -/
theorem block_at (y : S8192x1.Idx) :
    k0_pay1 (k0_pay3 x0 x1 x2 x3 x4) (k0_pay4 x0 x5 x6) (k0_pay5 (F := Ideal)) x7 x8 x9 y
      = rowScore (fun f => x0 (ix2 (y 0) f)) (fun f j => x1 (ix2 f j)) (fun j => x2 (ix2 (0 : Fin 1) j))
          (fun k j => x3 (ix2 k j)) (fun j => x4 (ix2 (0 : Fin 1) j)) (fun r f => x5 (ix2 f r))
          (fun r => x6 (ix2 (0 : Fin 1) r)) (fun j => x7 (ix2 (0 : Fin 1) j)) (fun r => x8 (ix2 (0 : Fin 1) r))
          (x9 (ix2 (0 : Fin 1) (0 : Fin 1))) :=
  (congrArg (k0_pay1 (k0_pay3 x0 x1 x2 x3 x4) (k0_pay4 x0 x5 x6) (k0_pay5 (F := Ideal)) x7 x8 x9) (eq_ix2 y)).trans
    (block_apply x0 x1 x2 x3 x4 x5 x6 x7 x8 x9 (y 0) (y 1))

end Cert.BlockScore

end
-- ==== Proof.LibColumnForms.lean ====
/-
  Three readings, at an entry, of operations that move between a column, a row and a vector, for any sizes.

  An `a × 1` column re-laid as a `1 × a` row, or flattened to a length-`a` vector, moves no entry: position `i` of the
  row or of the vector is entry `(i, 0)` of the column. A host sum along the lanes of an `n × k` array, started from
  an initial scalar, is at row `r` that scalar plus the sum of the row's `k` entries.
-/
import Idealize.ShloMosaic.Lib.Pipeline.Value
import Idealize.ShloMosaic.Lib.ValueIdx
import Idealize.ShloMosaic.PureOps.Ideal.Laws

noncomputable section

open scoped BigOperators

namespace Cert.Lib.ColumnForms

open Idealize.ShloMosaic Idealize.ShloMosaic.ValueIdx

variable {α : Type}

/-- An `a × 1` column re-laid as a `1 × a` row reads, at `(u, i)`, the column at `(i, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) := by
  refine shapeCast_apply x h (ix2 u i) (ix2 i (0 : Fin 1)) ?_
  rw [Shape.rowMajor_val_two, Shape.rowMajor_val_two]
  show i.val * 1 + 0 = u.val * a + i.val
  have hu : u.val = 0 := by omega
  rw [hu, Nat.zero_mul, Nat.zero_add, Nat.mul_one, Nat.add_zero]

/-- An `a × 1` column flattened to a length-`a` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) := by
  refine shapeCast_apply x h (ix1 i) (ix2 i (0 : Fin 1)) ?_
  rw [Shape.rowMajor_val_two, Shape.rowMajor_val_one]
  show i.val * 1 + 0 = i.val
  rw [Nat.mul_one, Nat.add_zero]

/-- A host sum along the lanes of an `n × k` array from an initial scalar reads, at row `r`, the scalar plus the sum of
    that row's entries. The caller supplies the index-lifting form of the shape fact (decided at its literal shapes). -/
theorem hostRowSum_apply {n k : ℕ} (x : FVec Ideal ⟨2, ![n, k]⟩ .f32) (v : FVec Ideal ⟨0, ![]⟩ .f32)
    (h' : (⟨2, ![n, k]⟩ : Shape).ReducesTo [1] ⟨1, ![n]⟩) (h0 : 0 < (⟨0, ![]⟩ : Shape).numel)
    (h : (⟨2, ![n, k]⟩ : Shape).Reduces [1] ⟨1, ![n]⟩) (r : Fin n) :
    Host.reduceAdd x v h' h0 (ix1 r) = v (Shape.Idx.first h0) + ∑ c : Fin k, x (ix2 r c) := by
  simp only [Host.reduceAdd, Ideal.hostReduceAdd_def]
  rw [Ideal.hostReduceAdd_single h' h]
  refine congrArg (_ + ·) (Finset.sum_congr rfl fun c _ => ?_)
  exact congrArg x (funext fun a => Fin.ext (by match a with | ⟨0, _⟩ => rfl | ⟨1, _⟩ => rfl))

end Cert.Lib.ColumnForms

end
-- ==== Proof.RegionEntry.lean ====
/-
  What the kernel's small operands hold when the region is entered.

  Before the region the host re-lays the small arguments: the two bias vectors become `1 × n` rows, the reference
  array is transposed to `256 × 64`, its rows' squared norms (a host sum of the entrywise squares, started from the
  zero word) become a `1 × 64` row, the 80 final weights are cut into their first 16 and last 64 rows and each cut is
  re-laid as a row, and the final bias becomes a `1 × 1` cell. None of this moves or changes a number: each operand,
  read at an entry, is the argument it came from at the matching entry — and, for the norms row, the zero word plus
  the sum of the reference row's squares.
-/
import proofs.«133785_j65481071396201_1_alg».proof.Proof.Gen.KernelIdeal.Frame
import proofs.«133785_j65481071396201_1_alg».proof.Proof.RbfScore
import proofs.«133785_j65481071396201_1_alg».proof.Proof.LibColumnForms
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.RegionEntry

open Cert.KernelIdeal Cert.KernelIdeal.Gen Cert.RbfScore Cert.Lib.ColumnForms
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- The first bias as a `1 × 32` row. -/
theorem bias1_entry (j : Fin 32) :
    (V m c main_v0 : S1x32.Idx → EReal) (ix2 (0 : Fin 1) j)
      = (m ((c : Thread nD τ).loc main_arg2) : S32.Idx → EReal) (ix1 j) := by
  have e : (V m c main_v0 : S1x32.Idx → EReal)
      = shapeCast S1x32 (m ((c : Thread nD τ).loc main_arg2)) shapeCasts_S32_S1x32 := by
    show StableHlo.after (hostOps0 (F := Ideal)) (fun b => m (c, b)) (Proc.devRef .tc main_v0) = _
    after_results <;> rfl
  exact (congrFun e _).trans (shapeCast_a_1a_apply _ _ _ _)

/-- The second bias as a `1 × 16` row. -/
theorem bias2_entry (j : Fin 16) :
    (V m c main_v1 : S1x16.Idx → EReal) (ix2 (0 : Fin 1) j)
      = (m ((c : Thread nD τ).loc main_arg4) : S16.Idx → EReal) (ix1 j) := by
  have e : (V m c main_v1 : S1x16.Idx → EReal)
      = shapeCast S1x16 (m ((c : Thread nD τ).loc main_arg4)) shapeCasts_S16_S1x16 := by
    show StableHlo.after (hostOps0 (F := Ideal)) (fun b => m (c, b)) (Proc.devRef .tc main_v1) = _
    after_results <;> rfl
  exact (congrFun e _).trans (shapeCast_a_1a_apply _ _ _ _)

/-- The reference array transposed: entry `(f, r)` is the reference array's `(r, f)`. -/
theorem refT_entry (f : Fin 256) (r : Fin 64) :
    (V m c main_v2 : S256x64.Idx → EReal) (ix2 f r)
      = (m ((c : Thread nD τ).loc main_arg5) : S64x256.Idx → EReal) (ix2 r f) := by
  have e : (V m c main_v2 : S256x64.Idx → EReal)
      = transpose S256x64 [1, 0] (m ((c : Thread nD τ).loc main_arg5)) transposes_S64x256_S256x64_1_0 := by
    show StableHlo.after (hostOps0 (F := Ideal)) (fun b => m (c, b)) (Proc.devRef .tc main_v2) = _
    after_results <;> rfl
  exact (congrFun e _).trans (transpose_ix2_apply _ _ _ _)

/-- The reference rows' squared norms as a `1 × 64` row. -/
theorem refNorm_entry (r : Fin 64) :
    (V m c main_v5 : S1x64.Idx → EReal) (ix2 (0 : Fin 1) r)
      = sqNorm fun f => (m ((c : Thread nD τ).loc main_arg5) : S64x256.Idx → EReal) (ix2 r f) := by
  have e : (V m c main_v5 : S1x64.Idx → EReal)
      = shapeCast S1x64 (Host.reduceAdd (mulf (m ((c : Thread nD τ).loc main_arg5)) (m ((c : Thread nD τ).loc main_arg5)))
          (constant (F := Ideal) S_ .f32 0x00000000#32) reducesTo_S64x256_S64_d1 h_S_) shapeCasts_S64_S1x64 := by
    show StableHlo.after (hostOps0 (F := Ideal)) (fun b => m (c, b)) (Proc.devRef .tc main_v5) = _
    after_results <;> rfl
  refine (congrFun e _).trans ((shapeCast_a_1a_apply _ _ _ _).trans ?_)
  rw [hostRowSum_apply _ _ reducesTo_S64x256_S64_d1 h_S_ (by decide) r]
  exact zeroW_add _

/-- The first 16 of the 80 final weights as a `1 × 16` row. -/
theorem weightsHead_entry (j : Fin 16) :
    (V m c main_v7 : S1x16.Idx → EReal) (ix2 (0 : Fin 1) j)
      = (m ((c : Thread nD τ).loc main_arg6) : S80x1.Idx → EReal) (ix2 (headIdx j) (0 : Fin 1)) := by
  have e : (V m c main_v7 : S1x16.Idx → EReal)
      = shapeCast S1x16 (extractStridedSlice S16x1 ![0, 0] (m ((c : Thread nD τ).loc main_arg6)) slices_S80x1_S16x1_0_0)
          shapeCasts_S16x1_S1x16 := by
    show StableHlo.after (hostOps0 (F := Ideal)) (fun b => m (c, b)) (Proc.devRef .tc main_v7) = _
    after_results <;> rfl
  refine (congrFun e _).trans ((shapeCast_a1_1a_apply _ _ _ _).trans ?_)
  exact slice2_axis0_apply 0 _ _ j (0 : Fin 1) (headIdx j) (by show j.val = 0 + j.val; omega)

/-- The last 64 of the 80 final weights as a `1 × 64` row. -/
theorem weightsTail_entry (r : Fin 64) :
    (V m c main_v9 : S1x64.Idx → EReal) (ix2 (0 : Fin 1) r)
      = (m ((c : Thread nD τ).loc main_arg6) : S80x1.Idx → EReal) (ix2 (tailIdx r) (0 : Fin 1)) := by
  have e : (V m c main_v9 : S1x64.Idx → EReal)
      = shapeCast S1x64 (extractStridedSlice S64x1 ![16, 0] (m ((c : Thread nD τ).loc main_arg6)) slices_S80x1_S64x1_16_0)
          shapeCasts_S64x1_S1x64 := by
    show StableHlo.after (hostOps0 (F := Ideal)) (fun b => m (c, b)) (Proc.devRef .tc main_v9) = _
    after_results <;> rfl
  refine (congrFun e _).trans ((shapeCast_a1_1a_apply _ _ _ _).trans ?_)
  exact slice2_axis0_apply 16 _ _ r (0 : Fin 1) (tailIdx r) rfl

/-- The final bias as a `1 × 1` cell. -/
theorem biasCell_entry :
    (V m c main_v10 : S1x1.Idx → EReal) (ix2 (0 : Fin 1) (0 : Fin 1))
      = (m ((c : Thread nD τ).loc main_arg7) : S1.Idx → EReal) (ix1 (0 : Fin 1)) := by
  have e : (V m c main_v10 : S1x1.Idx → EReal)
      = shapeCast S1x1 (m ((c : Thread nD τ).loc main_arg7)) shapeCasts_S1_S1x1 := by
    show StableHlo.after (hostOps0 (F := Ideal)) (fun b => m (c, b)) (Proc.devRef .tc main_v10) = _
    after_results <;> rfl
  exact (congrFun e _).trans (shapeCast_a_1a_apply _ _ _ _)

end Cert.RegionEntry

end
-- ==== Proof.ScoreArray.lean ====
/-
  From the stored blocks to the result array, and the kernel's run.

  The grid has 16 points; point `t` reads rows `8192 t … 8192 t + 8191` of the input and every small operand whole, and
  writes back rows `8192 t … 8192 t + 8191` of an `131072 × 1` column. Row `8192 t + p` of that column is therefore the
  score of input row `8192 t + p` (what one point stores is `rowScore` of its block's rows; the small operands are
  the arguments re-laid). The 16 blocks cover the column, so after the region the column is the score of every row;
  the host then flattens the column to a vector, which moves no entry.
-/
import proofs.«133785_j65481071396201_1_alg».proof.Proof.Gen.KernelIdeal.Frame
import proofs.«133785_j65481071396201_1_alg».proof.Proof.RbfScore
import proofs.«133785_j65481071396201_1_alg».proof.Proof.BlockScore
import proofs.«133785_j65481071396201_1_alg».proof.Proof.RegionEntry
import proofs.«133785_j65481071396201_1_alg».proof.Proof.LibColumnForms
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

open scoped BigOperators

namespace Cert.ScoreArray

open Cert.KernelIdeal Cert.KernelIdeal.Gen Cert.RbfScore Cert.BlockScore Cert.RegionEntry
open Cert.Lib.ColumnForms
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The result vector: the specification of the arguments as launched. -/
def score (c : Dev nD) : S131072.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The same numbers as the `131072 × 1` column the region writes. -/
def scoreColumn (c : Dev nD) : S131072x1.Idx → EReal := fun i => score m c (ix1 (i 0))

theorem hz : (![0, 0] : Fin 2 → Nat) = fun _ => 0 := funext fun a => by fin_cases a <;> rfl

/-! ## The small operands: each window's block is its whole array -/

theorem origin1 : ∀ t : Fin cfg0.N, win0_1.index t = ![0, 0] :=
  (by decide +kernel : ∀ t : Fin grid0.N, win0_1.index t = ![0, 0])
theorem whole1 (c : Dev nD) (t : Fin cfg0.N) (y : S256x32.Idx) :
    iblk m c 1 t y = (V m c main_arg1 : S256x32.Idx → EReal) y := by
  have h0 : win0_1.index t (0 : Fin 2) = 0 := congrFun (origin1 t) 0
  have h1 : win0_1.index t (1 : Fin 2) = 0 := congrFun (origin1 t) 1
  show (V m c main_arg1 : S256x32.Idx → EReal) (((cfg0.win 1).blk t).view.emb y) = _
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 32 + 1 * (y 1).val = (y 1).val; omega

theorem origin2 : ∀ t : Fin cfg0.N, win0_2.index t = ![0, 0] :=
  (by decide +kernel : ∀ t : Fin grid0.N, win0_2.index t = ![0, 0])
theorem whole2 (c : Dev nD) (t : Fin cfg0.N) (y : S1x32.Idx) :
    iblk m c 2 t y = (V m c main_v0 : S1x32.Idx → EReal) y := by
  have h0 : win0_2.index t (0 : Fin 2) = 0 := congrFun (origin2 t) 0
  have h1 : win0_2.index t (1 : Fin 2) = 0 := congrFun (origin2 t) 1
  show (V m c main_v0 : S1x32.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega

theorem origin3 : ∀ t : Fin cfg0.N, win0_3.index t = ![0, 0] :=
  (by decide +kernel : ∀ t : Fin grid0.N, win0_3.index t = ![0, 0])
theorem whole3 (c : Dev nD) (t : Fin cfg0.N) (y : S32x16.Idx) :
    iblk m c 3 t y = (V m c main_arg3 : S32x16.Idx → EReal) y := by
  have h0 : win0_3.index t (0 : Fin 2) = 0 := congrFun (origin3 t) 0
  have h1 : win0_3.index t (1 : Fin 2) = 0 := congrFun (origin3 t) 1
  show (V m c main_arg3 : S32x16.Idx → EReal) (((cfg0.win 3).blk t).view.emb y) = _
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 16 + 1 * (y 1).val = (y 1).val; omega

theorem origin4 : ∀ t : Fin cfg0.N, win0_4.index t = ![0, 0] :=
  (by decide +kernel : ∀ t : Fin grid0.N, win0_4.index t = ![0, 0])
theorem whole4 (c : Dev nD) (t : Fin cfg0.N) (y : S1x16.Idx) :
    iblk m c 4 t y = (V m c main_v1 : S1x16.Idx → EReal) y := by
  have h0 : win0_4.index t (0 : Fin 2) = 0 := congrFun (origin4 t) 0
  have h1 : win0_4.index t (1 : Fin 2) = 0 := congrFun (origin4 t) 1
  show (V m c main_v1 : S1x16.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 16 + 1 * (y 1).val = (y 1).val; omega

theorem origin5 : ∀ t : Fin cfg0.N, win0_5.index t = ![0, 0] :=
  (by decide +kernel : ∀ t : Fin grid0.N, win0_5.index t = ![0, 0])
theorem whole5 (c : Dev nD) (t : Fin cfg0.N) (y : S256x64.Idx) :
    iblk m c 5 t y = (V m c main_v2 : S256x64.Idx → EReal) y := by
  have h0 : win0_5.index t (0 : Fin 2) = 0 := congrFun (origin5 t) 0
  have h1 : win0_5.index t (1 : Fin 2) = 0 := congrFun (origin5 t) 1
  show (V m c main_v2 : S256x64.Idx → EReal) (((cfg0.win 5).blk t).view.emb y) = _
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 64 + 1 * (y 1).val = (y 1).val; omega

theorem origin6 : ∀ t : Fin cfg0.N, win0_6.index t = ![0, 0] :=
  (by decide +kernel : ∀ t : Fin grid0.N, win0_6.index t = ![0, 0])
theorem whole6 (c : Dev nD) (t : Fin cfg0.N) (y : S1x64.Idx) :
    iblk m c 6 t y = (V m c main_v5 : S1x64.Idx → EReal) y := by
  have h0 : win0_6.index t (0 : Fin 2) = 0 := congrFun (origin6 t) 0
  have h1 : win0_6.index t (1 : Fin 2) = 0 := congrFun (origin6 t) 1
  show (V m c main_v5 : S1x64.Idx → EReal) (((cfg0.win 6).blk t).view.emb y) = _
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

theorem origin7 : ∀ t : Fin cfg0.N, win0_7.index t = ![0, 0] :=
  (by decide +kernel : ∀ t : Fin grid0.N, win0_7.index t = ![0, 0])
theorem whole7 (c : Dev nD) (t : Fin cfg0.N) (y : S1x16.Idx) :
    iblk m c 7 t y = (V m c main_v7 : S1x16.Idx → EReal) y := by
  have h0 : win0_7.index t (0 : Fin 2) = 0 := congrFun (origin7 t) 0
  have h1 : win0_7.index t (1 : Fin 2) = 0 := congrFun (origin7 t) 1
  show (V m c main_v7 : S1x16.Idx → EReal) (((cfg0.win 7).blk t).view.emb y) = _
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 16 + 1 * (y 1).val = (y 1).val; omega

theorem origin8 : ∀ t : Fin cfg0.N, win0_8.index t = ![0, 0] :=
  (by decide +kernel : ∀ t : Fin grid0.N, win0_8.index t = ![0, 0])
theorem whole8 (c : Dev nD) (t : Fin cfg0.N) (y : S1x64.Idx) :
    iblk m c 8 t y = (V m c main_v9 : S1x64.Idx → EReal) y := by
  have h0 : win0_8.index t (0 : Fin 2) = 0 := congrFun (origin8 t) 0
  have h1 : win0_8.index t (1 : Fin 2) = 0 := congrFun (origin8 t) 1
  show (V m c main_v9 : S1x64.Idx → EReal) (((cfg0.win 8).blk t).view.emb y) = _
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 64 + 1 * (y 1).val = (y 1).val; omega

theorem origin9 : ∀ t : Fin cfg0.N, win0_9.index t = ![0, 0] :=
  (by decide +kernel : ∀ t : Fin grid0.N, win0_9.index t = ![0, 0])
theorem whole9 (c : Dev nD) (t : Fin cfg0.N) (y : S1x1.Idx) :
    iblk m c 9 t y = (V m c main_v10 : S1x1.Idx → EReal) y := by
  have h0 : win0_9.index t (0 : Fin 2) = 0 := congrFun (origin9 t) 0
  have h1 : win0_9.index t (1 : Fin 2) = 0 := congrFun (origin9 t) 1
  show (V m c main_v10 : S1x1.Idx → EReal) (((cfg0.win 9).blk t).view.emb y) = _
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 1 + 1 * (y 1).val = (y 1).val; omega

/-! ## The input rows and the output rows of a point -/

/-- Row `p` of point `t`'s block is row `8192 t + p` of the array. -/
def rowOf (t : Fin cfg0.N) (p : Fin 8192) : Fin 131072 :=
  ⟨t.val * 8192 + p.val, by
    have h : t.val < grid0.N := t.isLt
    rw [N_0] at h
    have := p.isLt
    omega⟩

theorem inputIndex : ∀ t : Fin cfg0.N, win0_0.index t = ![t.val, 0] :=
  (by decide +kernel : ∀ t : Fin grid0.N, win0_0.index t = ![t.val, 0])
theorem outputIndex : ∀ t : Fin cfg0.N, win0_10.index t = ![t.val, 0] :=
  (by decide +kernel : ∀ t : Fin grid0.N, win0_10.index t = ![t.val, 0])

/-- The input block of point `t` at `(p, f)` is the input at `(8192 t + p, f)`. -/
theorem inputBlock (c : Dev nD) (t : Fin cfg0.N) (p : Fin 8192) (f : Fin 256) :
    iblk m c 0 t (ix2 p f) = ((m ((c : Thread nD τ).loc main_arg0)) : S131072x256.Idx → EReal) (ix2 (rowOf t p) f) := by
  have h0 : win0_0.index t (0 : Fin 2) = t.val := congrFun (inputIndex t) 0
  have h1 : win0_0.index t (1 : Fin 2) = 0 := congrFun (inputIndex t) 1
  show (V m c main_arg0 : S131072x256.Idx → EReal) (((cfg0.win 0).blk t).view.emb (ix2 p f)) = _
  rw [V_main_arg0]
  refine congrArg _ (funext fun a => Fin.ext ?_)
  match a with
  | ⟨0, _⟩ => show win0_0.index t (0 : Fin 2) * 8192 + 1 * p.val = t.val * 8192 + p.val; omega
  | ⟨1, _⟩ => show win0_0.index t (1 : Fin 2) * 256 + 1 * f.val = f.val; omega

/-- Entry `y` of point `t`'s output block sits in row `8192 t + y₀` of the column. -/
theorem outputRow (t : Fin cfg0.N) (y : S8192x1.Idx) :
    (((cfg0.win 10).blk t).view.emb y) 0 = rowOf t (y 0) := by
  have h0 : win0_10.index t (0 : Fin 2) = t.val := congrFun (outputIndex t) 0
  refine Fin.ext ?_
  show win0_10.index t (0 : Fin 2) * 8192 + 1 * (y 0).val = t.val * 8192 + (y 0).val
  omega

/-! ## What a point writes back -/

/-- Point `t` writes back block `t` of the score column. -/
theorem flushed_eq (c : Dev nD) (t : Fin cfg0.N) :
    (dats m 0 c).flushed 10 t = ((cfg0.win 10).blk t).view.read (Elt Ideal) (scoreColumn m c) := by
  show (cfg0.win 10).cut (grid0.coords t) ((dats m 0 c).after 10 t) = _
  rw [after0_10]
  unfold out0_10
  rw [View.canon_unit_zero hz]
  simp only [View.ld_unit_zero (S := S8192x256) hz, View.ld_unit_zero (S := S256x32) hz, View.ld_unit_zero (S := S1x32) hz,
    View.ld_unit_zero (S := S32x16) hz, View.ld_unit_zero (S := S1x16) hz, View.ld_unit_zero (S := S256x64) hz,
    View.ld_unit_zero (S := S1x64) hz, View.ld_unit_zero (S := S1x1) hz]
  funext y
  refine (block_at (iblk m c 0 t) (iblk m c 1 t) (iblk m c 2 t) (iblk m c 3 t) (iblk m c 4 t) (iblk m c 5 t)
    (iblk m c 6 t) (iblk m c 7 t) (iblk m c 8 t) (iblk m c 9 t) y).trans ?_
  refine rowScore_congr (fun f => ?_) (fun f j => ?_) (fun j => ?_) (fun k j => ?_) (fun j => ?_) (fun r f => ?_) (fun r => ?_)
    (fun j => ?_) (fun r => ?_) ?_
  · exact (inputBlock m c t (y 0) f).trans (congrArg (fun a => (m ((c : Thread nD τ).loc main_arg0)) (ix2 a f)) (outputRow t y).symm)
  · exact (whole1 m c t _).trans (congrFun (V_main_arg1 m c) _)
  · exact (whole2 m c t _).trans (bias1_entry m c j)
  · exact (whole3 m c t _).trans (congrFun (V_main_arg3 m c) _)
  · exact (whole4 m c t _).trans (bias2_entry m c j)
  · exact (whole5 m c t _).trans (refT_entry m c f r)
  · exact (whole6 m c t _).trans (refNorm_entry m c r)
  · exact (whole7 m c t _).trans (weightsHead_entry m c j)
  · exact (whole8 m c t _).trans (weightsTail_entry m c r)
  · exact (whole9 m c t _).trans (biasCell_entry m c)

/-! ## The 16 blocks cover the column -/

theorem mem_block (t : Fin cfg0.N) (i : S131072x1.Idx) :
    i ∈ ((cfg0.win 10).blk t).view.set ↔ ∀ a : Fin 2, win0_10.index t a * S8192x1.size a ≤ (i a).val
      ∧ (i a).val < win0_10.index t a * S8192x1.size a + S8192x1.size a := by
  show i ∈ ((View.whole main_v11).slice (win0_10.rect t)).set ↔ _
  rw [View.set_slice_whole, Rect.mem_set_unit]
  exact Iff.rfl

theorem cover (i : S131072x1.Idx) :
    ∃ t : Fin cfg0.N, (cfg0.win 10).flush t = true ∧ i ∈ ((cfg0.win 10).blk t).view.set := by
  have hi0 : (i 0).val < 131072 := (i 0).isLt
  have hi1 : (i 1).val < 1 := (i 1).isLt
  have hN : (i 0).val / 8192 < grid0.N := by rw [N_0]; omega
  refine ⟨⟨(i 0).val / 8192, hN⟩, flush0_10 _, ?_⟩
  rw [mem_block]
  have h0 : win0_10.index ⟨(i 0).val / 8192, hN⟩ (0 : Fin 2) = (i 0).val / 8192 := congrFun (outputIndex _) 0
  have h1 : win0_10.index ⟨(i 0).val / 8192, hN⟩ (1 : Fin 2) = 0 := congrFun (outputIndex _) 1
  intro a
  match a with
  | ⟨0, _⟩ =>
    show win0_10.index ⟨(i 0).val / 8192, hN⟩ (0 : Fin 2) * 8192 ≤ (i 0).val
      ∧ (i 0).val < win0_10.index ⟨(i 0).val / 8192, hN⟩ (0 : Fin 2) * 8192 + 8192
    omega
  | ⟨1, _⟩ =>
    show win0_10.index ⟨(i 0).val / 8192, hN⟩ (1 : Fin 2) * 1 ≤ (i 1).val
      ∧ (i 1).val < win0_10.index ⟨(i 0).val / 8192, hN⟩ (1 : Fin 2) * 1 + 1
    omega

/-- After the region the output array is the score column. -/
theorem column_eq (c : Dev nD) : (dats m 0 c).arrAt 10 cfg0.N = scoreColumn m c :=
  (dats m 0 c).arrAt_eq_of_cover 10 (scoreColumn m c) (fun t _ => flushed_eq m c t) cover

/-! ## The host's last line and the run -/

/-- The flattened column is the score vector. -/
theorem result_eq (c : Dev nD) :
    (Pipeline.afterTail₀ cfgs (dats m) 0 (V0 m) [hostOps1] c main_v12 : S131072.Idx → EReal) = score m c := by
  have hw : (Pipeline.withArrays spec0 c (V0 m c) (fun w => (dats m 0 c).arrAt w cfg0.N) (Proc.devRef .tc main_v11)
      : S131072x1.Idx → EReal) = scoreColumn m c :=
    (Pipeline.withArrays_arr spec0 launch0.win.arr_inj c (V0 m c) (fun w => (dats m 0 c).arrAt w cfg0.N) 10).trans
      (column_eq m c)
  have e : (Pipeline.afterTail₀ cfgs (dats m) 0 (V0 m) [hostOps1] c main_v12 : S131072.Idx → EReal)
      = shapeCast S131072 (Pipeline.withArrays spec0 c (V0 m c) (fun w => (dats m 0 c).arrAt w cfg0.N)
          (Proc.devRef .tc main_v11) : S131072x1.Idx → EReal) shapeCasts_S131072x1_S131072 := by
    unfold Pipeline.afterTail₀
    show StableHlo.after (hostOps1 (F := Ideal)) _ (Proc.devRef .tc main_v12) = _
    after_results <;> rfl
  rw [e, hw]
  funext i
  obtain ⟨a, rfl⟩ : ∃ a : Fin 131072, i = ix1 a := ⟨i 0, eq_ix1 i⟩
  exact shapeCast_a1_a_apply _ _ a

/-- Every weakly fair execution of the kernel's program ends with the result at the score vector of the arguments as
    launched, and the arguments unchanged. -/
theorem run : θ_run defs (onTc (τ := τ) (main (F := Ideal))) ⟨m, fun _ => 0, ρ⟩ fun r => ∀ c : Dev nD,
      r.2.mem ((c : Thread nD τ).loc main_v12) = score m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨((h c).2 main_v12 (Pipeline.mem_restRefs_of main_v12 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.ScoreArray

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.ReferenceScore.lean ====
/-
  The host reference computes the specification.

  The reference's run ends at a composition of 41 whole-array operations; read at entry `a` of the result, one
  operation at a time, it is `rowScore` of row `a` of the input:
  * each matrix product at an entry is the sum over the contracted coordinate of the operands' products;
  * the two rectified layers are a maximum with the zero word;
  * the rows' squared norms are host sums started from the zero word, which is the additive unit;
  * the transposed reference array read at `(f, r)` is the reference array at `(r, f)`;
  * the 80-column array that joins the 16 dense outputs and the 64 radial features is read on its left part or on its
    right part, so the final product's sum over 80 columns is the dense sum plus the radial sum (`sum_head_tail`).
-/
import proofs.«133785_j65481071396201_1_alg».proof.Proof.Gen.ReferenceIdeal.Read
import proofs.«133785_j65481071396201_1_alg».proof.Proof.RbfScore
import proofs.«133785_j65481071396201_1_alg».proof.Proof.LibConcatCols

noncomputable section

open scoped BigOperators

namespace Cert.ReferenceScore

open Cert.ReferenceIdeal Cert.ReferenceIdeal.Read Cert.RbfScore Cert.Lib.ConcatCols
open Idealize.ShloMosaic Idealize.ShloMosaic.ValueIdx

variable (X : (⟨S131072x256, .f32⟩ : BufTy).Contents (Elt Ideal)) (W1 : (⟨S256x32, .f32⟩ : BufTy).Contents (Elt Ideal))
  (b1 : (⟨S32, .f32⟩ : BufTy).Contents (Elt Ideal)) (W2 : (⟨S32x16, .f32⟩ : BufTy).Contents (Elt Ideal))
  (b2 : (⟨S16, .f32⟩ : BufTy).Contents (Elt Ideal)) (R : (⟨S64x256, .f32⟩ : BufTy).Contents (Elt Ideal))
  (Wf : (⟨S80x1, .f32⟩ : BufTy).Contents (Elt Ideal)) (bf : (⟨S1, .f32⟩ : BufTy).Contents (Elt Ideal))

/-! ## The dense branch -/

/-- The first rectified layer at `(a, k)`. -/
theorem layer1_apply (a : Fin 131072) (k : Fin 32) :
    val_main_v4 (F := Ideal) X W1 b1 (ix2 a k)
      = hidden1 (fun f => X (ix2 a f)) (fun f j => W1 (ix2 f j)) (fun j => b1 (ix1 j)) k := by
  have el : ∀ f : Fin 256, lidx_main_v0 (ix2 a k) f = ix2 a f := fun f =>
    funext fun d => Fin.ext (by match d with | ⟨0, _⟩ => rfl | ⟨1, _⟩ => rfl)
  have er : ∀ f : Fin 256, ridx_main_v0 (ix2 a k) f = ix2 f k := fun f =>
    funext fun d => Fin.ext (by match d with | ⟨0, _⟩ => rfl | ⟨1, _⟩ => rfl)
  have eb : idx_main_v1 (idx_main_v2 (ix2 a k)) = ix1 k :=
    funext fun d => Fin.ext (by match d with | ⟨0, _⟩ => rfl)
  rw [val_main_v4_apply, val_main_v3_apply, val_main_v0_apply, val_main_v2_apply, val_main_v1_apply,
    val_main_call0_v0_apply, val_main_call0_cst_apply, eb]
  simp only [el, er, Ideal.maximumf_def, Ideal.addf_def, Ideal.ofBits_def]
  rfl

/-- The second rectified layer at `(a, j)`. -/
theorem layer2_apply (a : Fin 131072) (j : Fin 16) :
    val_main_v9 (F := Ideal) X W1 b1 W2 b2 (ix2 a j)
      = hidden2 (hidden1 (fun f => X (ix2 a f)) (fun f j => W1 (ix2 f j)) (fun j => b1 (ix1 j)))
          (fun k j => W2 (ix2 k j)) (fun j => b2 (ix1 j)) j := by
  have el : ∀ k : Fin 32, lidx_main_v5 (ix2 a j) k = ix2 a k := fun k =>
    funext fun d => Fin.ext (by match d with | ⟨0, _⟩ => rfl | ⟨1, _⟩ => rfl)
  have er : ∀ k : Fin 32, ridx_main_v5 (ix2 a j) k = ix2 k j := fun k =>
    funext fun d => Fin.ext (by match d with | ⟨0, _⟩ => rfl | ⟨1, _⟩ => rfl)
  have eb : idx_main_v6 (idx_main_v7 (ix2 a j)) = ix1 j :=
    funext fun d => Fin.ext (by match d with | ⟨0, _⟩ => rfl)
  rw [val_main_v9_apply, val_main_v8_apply, val_main_v5_apply, val_main_v7_apply, val_main_v6_apply,
    val_main_call1_v0_apply, val_main_call1_cst_apply, eb]
  simp only [el, er, layer1_apply, Ideal.maximumf_def, Ideal.addf_def, Ideal.ofBits_def]
  rfl

/-! ## The radial branch -/

/-- The squared norm of row `a` of the input, kept as a column and spread along 64 lanes, at `(a, r)`. -/
theorem inputNorm_apply (a : Fin 131072) (r : Fin 64) :
    val_main_v18 (F := Ideal) X (ix2 a r) = sqNorm fun f => X (ix2 a f) := by
  have e : ∀ f : Fin 256, idx_main_v11 (idx_main_v12 (idx_main_v18 (ix2 a r))) f = ix2 a f := fun f =>
    funext fun d => Fin.ext (by match d with | ⟨0, _⟩ => rfl | ⟨1, _⟩ => rfl)
  rw [val_main_v18_apply, val_main_v12_apply, val_main_v11_apply, val_main_cst_apply]
  simp only [e, val_main_v10_apply, Ideal.mulf_def, Ideal.ofBits_def]
  exact zeroW_add _

/-- The squared norm of reference row `r`, kept as a row and spread along the batch, at `(a, r)`. -/
theorem refNorm_apply (a : Fin 131072) (r : Fin 64) :
    val_main_v19 (F := Ideal) R (ix2 a r) = sqNorm fun f => R (ix2 r f) := by
  have e : ∀ f : Fin 256, idx_main_v14 (idx_main_v17 (idx_main_v19 (ix2 a r))) f = ix2 r f := fun f =>
    funext fun d => Fin.ext (by match d with | ⟨0, _⟩ => rfl | ⟨1, _⟩ => rfl)
  rw [val_main_v19_apply, val_main_v17_apply, val_main_v14_apply, val_main_cst_0_apply]
  simp only [e, val_main_v13_apply, Ideal.mulf_def, Ideal.ofBits_def]
  exact zeroW_add _

/-- The inner product of input row `a` with reference row `r`, taken against the transposed reference array. -/
theorem cross_apply (a : Fin 131072) (r : Fin 64) :
    val_main_v16 (F := Ideal) X R (ix2 a r) = ∑ f : Fin 256, X (ix2 a f) * R (ix2 r f) := by
  have el : ∀ f : Fin 256, lidx_main_v16 (ix2 a r) f = ix2 a f := fun f =>
    funext fun d => Fin.ext (by match d with | ⟨0, _⟩ => rfl | ⟨1, _⟩ => rfl)
  have er : ∀ f : Fin 256, idx_main_v15 (ridx_main_v16 (ix2 a r) f) = ix2 r f := fun f =>
    funext fun d => Fin.ext (by match d with | ⟨0, _⟩ => rfl | ⟨1, _⟩ => rfl)
  rw [val_main_v16_apply]
  simp only [el, val_main_v15_apply, er]

/-- The radial feature at `(a, r)`. -/
theorem feature_apply (a : Fin 131072) (r : Fin 64) :
    val_main_v26 (F := Ideal) X R (ix2 a r)
      = feature (fun f => X (ix2 a f)) (fun r f => R (ix2 r f)) (fun r => sqNorm fun f => R (ix2 r f)) r := by
  rw [val_main_v26_apply, val_main_v25_apply, val_main_v24_apply, val_main_cst_2_apply, val_main_v23_apply,
    val_main_v20_apply, val_main_v22_apply, val_main_v21_apply, val_main_cst_1_apply, inputNorm_apply, refNorm_apply,
    cross_apply]
  simp only [Ideal.hostUnary_exp_def, Ideal.mulf_def, Ideal.subf_def, Ideal.addf_def, Ideal.ofBits_def]
  rfl

/-! ## The joined array and the final product -/

/-- The joined array on its first 16 columns is the dense branch. -/
theorem joined_head (a : Fin 131072) (j : Fin 16) :
    val_main_v27 (F := Ideal) X W1 b1 W2 b2 R (ix2 a (headIdx j)) = val_main_v9 (F := Ideal) X W1 b1 W2 b2 (ix2 a j) := by
  unfold val_main_v27
  exact concat_cols_left _ _ _ a (headIdx j) j rfl

/-- The joined array on its last 64 columns is the radial branch. -/
theorem joined_tail (a : Fin 131072) (r : Fin 64) :
    val_main_v27 (F := Ideal) X W1 b1 W2 b2 R (ix2 a (tailIdx r)) = val_main_v26 (F := Ideal) X R (ix2 a r) := by
  unfold val_main_v27
  exact concat_cols_right _ _ _ a (tailIdx r) r rfl

/-- The reference's result is the specification, entry by entry. -/
theorem reference_eq : val_main_v32 (F := Ideal) X W1 b1 W2 b2 R Wf bf = G X W1 b1 W2 b2 R Wf bf := by
  funext i
  obtain ⟨a, rfl⟩ : ∃ a : Fin 131072, i = ix1 a := ⟨i 0, eq_ix1 i⟩
  have e32 : idx_main_v32 (ix1 a) = ix2 a (0 : Fin 1) :=
    funext fun d => Fin.ext (by
      match d with
      | ⟨0, _⟩ => exact Nat.div_one _
      | ⟨1, _⟩ => rfl)
  have el : ∀ k : Fin 80, lidx_main_v28 (ix2 a (0 : Fin 1)) k = ix2 a k := fun k =>
    funext fun d => Fin.ext (by match d with | ⟨0, _⟩ => rfl | ⟨1, _⟩ => rfl)
  have er : ∀ k : Fin 80, ridx_main_v28 (ix2 a (0 : Fin 1)) k = ix2 k (0 : Fin 1) := fun k =>
    funext fun d => Fin.ext (by match d with | ⟨0, _⟩ => rfl | ⟨1, _⟩ => rfl)
  have eb : idx_main_v29 (idx_main_v30 (ix2 a (0 : Fin 1))) = ix1 (0 : Fin 1) :=
    funext fun d => Fin.ext (by match d with | ⟨0, _⟩ => rfl)
  rw [val_main_v32_apply, e32, val_main_v31_apply, val_main_v28_apply, val_main_v30_apply, val_main_v29_apply, eb,
    sum_head_tail]
  simp only [el, er, joined_head, joined_tail, layer2_apply, feature_apply, Ideal.addf_def]
  rfl

end Cert.ReferenceScore

end
-- ==== Proof.lean ====
/- The proof of `Cert.Claim`: a Pallas kernel that scores 131072 input rows, 8192 rows per grid point, against the plain
   array program it was written from.

   Both programs compute, for every input row `x`, the number
     `(Σ_j h₂ j · w_j + Σ_r exp (−1 · ((|x|² + |ρ_r|²) − 2 ⟨x, ρ_r⟩)) · w'_r) + β`
   where `h₂ = max (max (x W₁ + b₁, 0) W₂ + b₂, 0)`, `ρ_r` are the 64 reference rows, and `w`, `w'` are the first 16 and
   the last 64 of 80 final weights (Proof/RbfScore.lean: `rowScore`, and `G` for the whole arrays).
   * The kernel keeps the two branches apart and adds their two weighted sums; the reference joins the 16 dense outputs
     and the 64 radial features into one row of 80 and takes one product with the 80 weights. A sum over 80 positions is
     the sum over the first 16 plus the sum over the last 64: this uses only that addition is commutative and associative,
     so it holds on the extended reals as it stands, and the precondition (finite inputs) is never opened.
   * The kernel's narrowing of matrix operands to bf16 is the identity over the extended reals; its host-side re-laying of
     the small arguments (rows, a transpose, two cuts of the weights) moves no number (Proof/RegionEntry.lean).
   * What one grid point stores is the score of its 8192 rows (Proof/BlockScore.lean); the 16 blocks cover the output
     column, which the host flattens (Proof/ScoreArray.lean: the kernel's run). The reference's run, read one operation at
     a time, is the same function (Proof/ReferenceScore.lean).
   The three frames are the generated frame certificates (the reference's is its generated run with the result dropped);
   the idealization rewrote no operation, so `preserves` is `True`. -/
import proofs.«133785_j65481071396201_1_alg».proof.Defs
import proofs.«133785_j65481071396201_1_alg».proof.Proof.Gen.Kernel
import proofs.«133785_j65481071396201_1_alg».proof.Proof.Gen.Kernel.Skeleton
import proofs.«133785_j65481071396201_1_alg».proof.Proof.Gen.Kernel.Launch
import proofs.«133785_j65481071396201_1_alg».proof.Proof.Gen.Kernel.Points
import proofs.«133785_j65481071396201_1_alg».proof.Proof.Gen.Kernel.Frame
import proofs.«133785_j65481071396201_1_alg».proof.Proof.Gen.KernelIdeal
import proofs.«133785_j65481071396201_1_alg».proof.Proof.Gen.KernelIdeal.Skeleton
import proofs.«133785_j65481071396201_1_alg».proof.Proof.Gen.KernelIdeal.Launch
import proofs.«133785_j65481071396201_1_alg».proof.Proof.Gen.KernelIdeal.Points
import proofs.«133785_j65481071396201_1_alg».proof.Proof.Gen.KernelIdeal.Frame
import proofs.«133785_j65481071396201_1_alg».proof.Proof.Gen.ReferenceIdeal
import proofs.«133785_j65481071396201_1_alg».proof.Proof.Gen.Pre_finite_inputs
import proofs.«133785_j65481071396201_1_alg».proof.Proof.Gen.ReferenceIdeal.Run
import proofs.«133785_j65481071396201_1_alg».proof.Proof.Gen.ReferenceIdeal.Read
import proofs.«133785_j65481071396201_1_alg».proof.Proof.ScoreArray
import proofs.«133785_j65481071396201_1_alg».proof.Proof.ReferenceScore
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- From memories that agree on the eight arguments both programs end with the score vector of those arguments: the
    kernel by its run (blocks, cover, the host's flattening), the reference by its run read as the specification. -/
theorem algebraic : Cert.algebraic_KernelIdeal_ReferenceIdeal := by
  intro m ρ m' ρ' _ hagree
  refine ⟨fun c => Cert.ScoreArray.score m c, Cert.ScoreArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceScore.reference_eq, (hagree c).1, (hagree c).2.1,
    (hagree c).2.2.1, (hagree c).2.2.2.1, (hagree c).2.2.2.2.1, (hagree c).2.2.2.2.2.1, (hagree c).2.2.2.2.2.2.1,
    (hagree c).2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
